-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S16x4096 .f32) (main_arg3 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S8192x4096 : Shape := ⟨2, ![8192, 4096]⟩
abbrev S2048x1024 : Shape := ⟨2, ![2048, 1024]⟩
abbrev S16x1024 : Shape := ⟨2, ![16, 1024]⟩
abbrev S2048x16 : Shape := ⟨2, ![2048, 16]⟩
abbrev S2048x2048 : Shape := ⟨2, ![2048, 2048]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S8192x4096, .f32⟩
  | .hbm, ⟨8, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S16x1024, .f32⟩
  | .local _ .vmem, ⟨5, _⟩ => ⟨S16x1024, .f32⟩
  | .local _ .vmem, ⟨6, _⟩ => ⟨S2048x16, .f32⟩
  | .local _ .vmem, ⟨7, _⟩ => ⟨S2048x16, .f32⟩
  | .local _ .vmem, ⟨8, _⟩ => ⟨S2048x2048, .f32⟩
  | .local _ .vmem, ⟨9, _⟩ => ⟨S2048x2048, .f32⟩
  | .local _ .vmem, ⟨10, _⟩ => ⟨S2048x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S16x1024_S16x1024_0_0 : ∀ a, (![0, 0] : Fin 2 → Nat) a + S16x1024.size a ≤ S16x1024.size a
  h_S16x1024 : 0 < S16x1024.numel
  shapeCasts_S2048x2048_S2048x2048 : S2048x2048.ShapeCasts S2048x2048
  shapeCasts_S8192x4096_S4x2048x4096 : S8192x4096.ShapeCasts S4x2048x4096
  dot_S2048x1024_S2048x1024_S2048x2048_1_1_0_0_n_n_wf : DotDims.WF S2048x1024 S2048x1024 S2048x2048 [1] [1] [0] [0] [] []
  dot_S2048x1024_S16x1024_S2048x16_1_1_0_0_n_n_wf : DotDims.WF S2048x1024 S16x1024 S2048x16 [1] [1] [0] [0] [] []
  dot_S2048x16_S2048x16_S2048x2048_1_1_0_0_n_n_wf : DotDims.WF S2048x16 S2048x16 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S4096x16.size a
  hwx0_3 : ∀ i : grid0.Coords, EltTy.bits .f32 = 32 ∨ (Rect.block (s := S4096x16) S2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x4096.size a
  hwx0_4 : ∀ i : grid0.Coords, EltTy.bits .f32 = 32 ∨ (Rect.block (s := S8192x4096) S2048x2048.size (cc0_transform_4 i) (hinb0_4 i)).WholeWords (EltTy.packing .f32)

variable [Facts₀]

def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf
def dot_S2048x1024_S16x1024_S2048x16_1_1_0_0_n_n : DotDims S2048x1024 S16x1024 S2048x16 where
  lhsContracting := [1]
  rhsContracting := [1]
  lhsNonContracting := [0]
  rhsNonContracting := [0]
  lhsBatch := []
  rhsBatch := []
  wf := dot_S2048x1024_S16x1024_S2048x16_1_1_0_0_n_n_wf
def dot_S2048x16_S2048x16_S2048x2048_1_1_0_0_n_n : DotDims S2048x16 S2048x16 S2048x2048 where
  lhsContracting := [1]
  rhsContracting := [1]
  lhsNonContracting := [0]
  rhsNonContracting := [0]
  lhsBatch := []
  rhsBatch := []
  wf := dot_S2048x16_S2048x16_S2048x2048_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4x2048x4096, .f32⟩
  | .hbm, ⟨5, _⟩ => ⟨S4x2048x16, .f32⟩
  | .hbm, ⟨6, _⟩ => ⟨S4x2048x4096, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Spec.lean ====
/-
  The specification. A linear layer with a rank-16 correction:

    out[b, s, o] = (∑ i, x[b, s, i] * W[o, i]) + (∑ r, (∑ i, x[b, s, i] * A[r, i]) * B[o, r]) * 2

  on the extended reals. The kernel reaches the two contractions over i in four blocks of 1024 columns, each
  block's partial sum added to what the blocks before it left, so the sums here are stated over an initial
  segment of the columns ('dotTo'): a partial sum is then an honest term, splitting a segment is
  'Finset.sum_range_add', and the whole segment is the sum over every column. Only the commutative-monoid
  structure of addition is used: nothing here needs the entries to be finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The factor alpha / rank = 32 / 16, as the float literal both programs carry. -/
abbrev scale : EReal := Ideal.ofBits .f32 0x40000000#32

/-- A two-axis and a three-axis array of extended reals. -/
abbrev Arr2 (n0 n1 : ℕ) : Type := (⟨2, ![n0, n1]⟩ : Shape).Idx → EReal
abbrev Arr3 (n0 n1 n2 : ℕ) : Type := (⟨3, ![n0, n1, n2]⟩ : Shape).Idx → EReal

/-- A natural number as a coordinate of an axis of positive extent, reduced modulo the extent: the identity on the
    coordinates that exist. -/
def wrap (n : ℕ) [NeZero n] (r : ℕ) : Fin n := ⟨r % n, Nat.mod_lt _ (NeZero.pos n)⟩

theorem wrap_val (n : ℕ) [NeZero n] (r : ℕ) : (wrap n r).val = r % n := rfl

theorem wrap_of_lt {n : ℕ} [NeZero n] {r : ℕ} (h : r < n) : wrap n r = ⟨r, h⟩ :=
  Fin.ext (Nat.mod_eq_of_lt h)

theorem wrap_fin {n : ℕ} [NeZero n] (i : Fin n) : wrap n i.val = i := wrap_of_lt i.isLt

/-- Entry (r, c) of a two-axis array, at any natural numbers. -/
def at2 {n0 n1 : ℕ} [NeZero n0] [NeZero n1] (X : Arr2 n0 n1) (r c : ℕ) : EReal := X (ix2 (wrap n0 r) (wrap n1 c))

theorem at2_fin {n0 n1 : ℕ} [NeZero n0] [NeZero n1] (X : Arr2 n0 n1) (r : Fin n0) (c : Fin n1) :
    at2 X r.val c.val = X (ix2 r c) := by
  unfold at2; rw [wrap_fin, wrap_fin]

/-- Row r of X against row o of Y, over the first len columns. -/
def dotTo {a b n : ℕ} [NeZero a] [NeZero b] [NeZero n] (X : Arr2 a n) (Y : Arr2 b n) (r o len : ℕ) : EReal :=
  ∑ k ∈ Finset.range len, at2 X r k * at2 Y o k

theorem dotTo_zero {a b n : ℕ} [NeZero a] [NeZero b] [NeZero n] (X : Arr2 a n) (Y : Arr2 b n) (r o : ℕ) :
    dotTo X Y r o 0 = 0 := Finset.sum_range_zero _

/-- A longer segment is the shorter one plus the columns between. -/
theorem dotTo_add {a b n : ℕ} [NeZero a] [NeZero b] [NeZero n] (X : Arr2 a n) (Y : Arr2 b n) (r o p q : ℕ) :
    dotTo X Y r o (p + q) = dotTo X Y r o p + ∑ l ∈ Finset.range q, at2 X r (p + l) * at2 Y o (p + l) :=
  Finset.sum_range_add _ p q

/-- The whole segment: the contraction over every column. -/
theorem dotTo_full {a b n : ℕ} [NeZero a] [NeZero b] [NeZero n] (X : Arr2 a n) (Y : Arr2 b n) (r : Fin a) (o : Fin b) :
    dotTo X Y r.val o.val n = ∑ k : Fin n, X (ix2 r k) * Y (ix2 o k) :=
  (Finset.sum_range fun k => at2 X r.val k * at2 Y o.val k).trans
    (Finset.sum_congr rfl fun k _ => by rw [at2_fin, at2_fin])

/-- The layer on rows: row r of the flattened input against the weights, plus the rank-16 correction, scaled. -/
def out2 (X : Arr2 8192 4096) (W : Arr2 4096 4096) (A : Arr2 16 4096) (B : Arr2 4096 16) (r o : ℕ) : EReal :=
  dotTo X W r o 4096 + (∑ ρ ∈ Finset.range 16, dotTo X A r ρ 4096 * at2 B o ρ) * scale

/-- The layer on the three-axis input, at coordinates. -/
def out3 (x : Arr3 4 2048 4096) (W : Arr2 4096 4096) (A : Arr2 16 4096) (B : Arr2 4096 16)
    (b : Fin 4) (s : Fin 2048) (o : Fin 4096) : EReal :=
  (∑ k : Fin 4096, x (ix3 b s k) * W (ix2 o k))
    + (∑ ρ : Fin 16, (∑ k : Fin 4096, x (ix3 b s k) * A (ix2 ρ k)) * B (ix2 o ρ)) * scale

/-- The result array: the layer at every index. -/
def G (x : Arr3 4 2048 4096) (W : Arr2 4096 4096) (A : Arr2 16 4096) (B : Arr2 4096 16) : Arr3 4 2048 4096 :=
  fun i => out3 x W A B ⟨(i 0).val, (i 0).isLt⟩ ⟨(i 1).val, (i 1).isLt⟩ ⟨(i 2).val, (i 2).isLt⟩

/-- The row form is the three-axis form, when X is x with its two leading axes flattened row-major. -/
theorem out2_eq_out3 (x : Arr3 4 2048 4096) (X : Arr2 8192 4096) (W : Arr2 4096 4096) (A : Arr2 16 4096) (B : Arr2 4096 16)
    (b : Fin 4) (s : Fin 2048) (o : Fin 4096) (R : Fin 8192) (hR : R.val = 2048 * b.val + s.val)
    (hX : ∀ k : Fin 4096, X (ix2 R k) = x (ix3 b s k)) :
    out2 X W A B R.val o.val = out3 x W A B b s o := by
  have h1 : dotTo X W R.val o.val 4096 = ∑ k : Fin 4096, x (ix3 b s k) * W (ix2 o k) :=
    (dotTo_full X W R o).trans (Finset.sum_congr rfl fun k _ => by rw [hX k])
  have h2 : ∀ ρ : Fin 16, dotTo X A R.val ρ.val 4096 = ∑ k : Fin 4096, x (ix3 b s k) * A (ix2 ρ k) := fun ρ =>
    (dotTo_full X A R ρ).trans (Finset.sum_congr rfl fun k _ => by rw [hX k])
  have h3 : (∑ ρ ∈ Finset.range 16, dotTo X A R.val ρ 4096 * at2 B o.val ρ)
      = ∑ ρ : Fin 16, (∑ k : Fin 4096, x (ix3 b s k) * A (ix2 ρ k)) * B (ix2 o ρ) :=
    (Finset.sum_range fun ρ => dotTo X A R.val ρ 4096 * at2 B o.val ρ).trans
      (Finset.sum_congr rfl fun ρ _ => by rw [h2 ρ, at2_fin])
  unfold out2 out3
  rw [h1, h3]

end Cert.Spec

end
-- ==== Proof.Blocks.lean ====
/-
  The blocks the body reads. The grid has 4 × 2 × 4 points, the last axis fastest: point t is row block
  i = t / 8, column block j = t / 4 % 2, and block k = t % 4 of the contracted axis. The input block of a point is
  rows 2048 i .. of the flattened input, columns 1024 k ..; the weight block rows 2048 j .., columns 1024 k ..; the
  first low-rank factor all 16 rows, columns 1024 k ..; the second rows 2048 j .., all 16 columns. A block's entry
  is the array's entry at block index times block size plus the offset inside the block.
-/
import proofs.«108152_j21388937134483_2_alg».proof.Proof.Gen.KernelIdeal.Frame
import proofs.«108152_j21388937134483_2_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

variable (m : (ℓ : Loc nD τ sig) → Buf (Elt Ideal) ℓ)

/-- The block indices of the four input windows and of the output window, at every point of the grid. -/
theorem idx0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem idx1 : ∀ t : Fin cfg0.N, win0_1.index t 0 = t.val / 4 % 2 ∧ win0_1.index t 1 = t.val % 4 :=
  (by decide +kernel : ∀ t : Fin grid0.N, win0_1.index t 0 = t.val / 4 % 2 ∧ win0_1.index t 1 = t.val % 4)
theorem idx2 : ∀ t : Fin cfg0.N, win0_2.index t 0 = 0 ∧ win0_2.index t 1 = t.val % 4 :=
  (by decide +kernel : ∀ t : Fin grid0.N, win0_2.index t 0 = 0 ∧ win0_2.index t 1 = t.val % 4)
theorem idx3 : ∀ t : Fin cfg0.N, win0_3.index t 0 = t.val / 4 % 2 ∧ win0_3.index t 1 = 0 :=
  (by decide +kernel : ∀ t : Fin grid0.N, win0_3.index t 0 = t.val / 4 % 2 ∧ win0_3.index t 1 = 0)
theorem idx4 : ∀ t : Fin cfg0.N, win0_4.index t 0 = t.val / 8 ∧ win0_4.index t 1 = t.val / 4 % 2 :=
  (by decide +kernel : ∀ t : Fin grid0.N, win0_4.index t 0 = t.val / 8 ∧ win0_4.index t 1 = t.val / 4 % 2)

/-- The input block of a point. -/
theorem iblk0_apply (c : Dev nD) (t : Fin cfg0.N) (r : Fin 2048) (l : Fin 1024) :
    (iblk m c 0 t : Vec Ideal S2048x1024 .bf16) (ix2 r l)
      = at2 (V m c main_v1 : Arr2 8192 4096) (2048 * (t.val / 8) + r.val) (1024 * (t.val % 4) + l.val) := by
  have hN : t.val < 32 := lt_of_lt_of_eq t.isLt (show cfg0.N = 32 from N_0)
  have hr := r.isLt
  have hl := l.isLt
  unfold iblk at2
  rw [View.read_apply]
  show V m c main_v1 _ = V m c main_v1 _
  congr 1
  funext a
  apply Fin.ext
  match a with
  | ⟨0, _⟩ =>
    show win0_0.index t 0 * 2048 + 1 * r.val = (2048 * (t.val / 8) + r.val) % _
    rw [(idx0 t).1]
    show _ = (2048 * (t.val / 8) + r.val) % 8192
    omega
  | ⟨1, _⟩ =>
    show win0_0.index t 1 * 1024 + 1 * l.val = (1024 * (t.val % 4) + l.val) % _
    rw [(idx0 t).2]
    show _ = (1024 * (t.val % 4) + l.val) % 4096
    omega

/-- The weight block of a point. -/
theorem iblk1_apply (c : Dev nD) (t : Fin cfg0.N) (r : Fin 2048) (l : Fin 1024) :
    (iblk m c 1 t : Vec Ideal S2048x1024 .bf16) (ix2 r l)
      = at2 (V m c main_v2 : Arr2 4096 4096) (2048 * (t.val / 4 % 2) + r.val) (1024 * (t.val % 4) + l.val) := by
  have hN : t.val < 32 := lt_of_lt_of_eq t.isLt (show cfg0.N = 32 from N_0)
  have hr := r.isLt
  have hl := l.isLt
  unfold iblk at2
  rw [View.read_apply]
  show V m c main_v2 _ = V m c main_v2 _
  congr 1
  funext a
  apply Fin.ext
  match a with
  | ⟨0, _⟩ =>
    show win0_1.index t 0 * 2048 + 1 * r.val = (2048 * (t.val / 4 % 2) + r.val) % _
    rw [(idx1 t).1]
    show _ = (2048 * (t.val / 4 % 2) + r.val) % 4096
    omega
  | ⟨1, _⟩ =>
    show win0_1.index t 1 * 1024 + 1 * l.val = (1024 * (t.val % 4) + l.val) % _
    rw [(idx1 t).2]
    show _ = (1024 * (t.val % 4) + l.val) % 4096
    omega

/-- The block of the first low-rank factor. -/
theorem iblk2_apply (c : Dev nD) (t : Fin cfg0.N) (r : Fin 16) (l : Fin 1024) :
    (iblk m c 2 t : Vec Ideal S16x1024 .f32) (ix2 r l)
      = at2 (V m c main_arg2 : Arr2 16 4096) (r.val) (1024 * (t.val % 4) + l.val) := by
  have hN : t.val < 32 := lt_of_lt_of_eq t.isLt (show cfg0.N = 32 from N_0)
  have hr := r.isLt
  have hl := l.isLt
  unfold iblk at2
  rw [View.read_apply]
  show V m c main_arg2 _ = V m c main_arg2 _
  congr 1
  funext a
  apply Fin.ext
  match a with
  | ⟨0, _⟩ =>
    show win0_2.index t 0 * 16 + 1 * r.val = (r.val) % _
    rw [(idx2 t).1]
    show _ = (r.val) % 16
    omega
  | ⟨1, _⟩ =>
    show win0_2.index t 1 * 1024 + 1 * l.val = (1024 * (t.val % 4) + l.val) % _
    rw [(idx2 t).2]
    show _ = (1024 * (t.val % 4) + l.val) % 4096
    omega

/-- The block of the second low-rank factor. -/
theorem iblk3_apply (c : Dev nD) (t : Fin cfg0.N) (r : Fin 2048) (l : Fin 16) :
    (iblk m c 3 t : Vec Ideal S2048x16 .f32) (ix2 r l)
      = at2 (V m c main_arg3 : Arr2 4096 16) (2048 * (t.val / 4 % 2) + r.val) (l.val) := by
  have hN : t.val < 32 := lt_of_lt_of_eq t.isLt (show cfg0.N = 32 from N_0)
  have hr := r.isLt
  have hl := l.isLt
  unfold iblk at2
  rw [View.read_apply]
  show V m c main_arg3 _ = V m c main_arg3 _
  congr 1
  funext a
  apply Fin.ext
  match a with
  | ⟨0, _⟩ =>
    show win0_3.index t 0 * 2048 + 1 * r.val = (2048 * (t.val / 4 % 2) + r.val) % _
    rw [(idx3 t).1]
    show _ = (2048 * (t.val / 4 % 2) + r.val) % 4096
    omega
  | ⟨1, _⟩ =>
    show win0_3.index t 1 * 16 + 1 * l.val = (l.val) % _
    rw [(idx3 t).2]
    show _ = (l.val) % 16
    omega

end Cert.KernelIdeal.Blocks

end
-- ==== Proof.Pieces.lean ====
/-
  What each control case of the kernel body leaves in the output block and in the carried accumulator, as plain
  terms over the body's payloads. The body has three cases, by the position k of the point along the contracted
  axis: the first block (k = 0) zeroes both accumulators and then accumulates; a middle block only accumulates; the
  last block (k = 3) accumulates and then adds the scaled rank-16 correction to the output block.

    first :  out = acc4 x w 0            r = acc5 x a 0
    middle:  out = acc4 x w out'         r = acc5 x a r'
    last  :  out = fin6 (acc5 x a r') b (acc4 x w out')      r = acc5 x a r'

  where acc4 adds the block product x·wᵀ, acc5 adds x·aᵀ, fin6 adds (r·bᵀ)·2, and out', r' are what the point
  before left. Every store covers its whole buffer, so the last store's payload is what the buffer holds, and a load
  after a store reads that store's payload.
-/
import proofs.«108152_j21388937134483_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First block, the output: zeroed, then the block product added. -/
theorem out_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S16x1024 .f32) (harg5 : arg5.IsWhole) (arg6 : Memref sig .tc .vmem S2048x16 .f32) (harg6 : arg6.IsWhole) (arg7 : Memref sig .tc .vmem S2048x2048 .f32) (harg7 : arg7.IsWhole) (arg8 : Memref sig .tc .vmem S2048x16 .f32) (harg8 : arg8.IsWhole) (hc0 : cond0_0 i) (hc1 : ¬cond0_1 i) (x0 : Vec F S2048x1024 .bf16) (x1 : Vec F S2048x1024 .bf16) (x2 : Vec F S16x1024 .f32) (x3 : Vec F S2048x16 .f32) :
    out0_A_4 c i arg3 harg3 arg4 harg4 arg5 harg5 arg6 harg6 arg7 harg7 arg8 harg8 hc0 hc1 x0 x1 x2 x3 = k0_pay4 x0 x1 k0_pay1 := by
  unfold out0_A_4
  rw [View.read_writes_eq_canon _ _ _ (cover0_A_4 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x2048) hz, View.readCov_unit_zero (S := S2048x2048) _ hz]
  simp only [View.readAt_eq_ld, harg3.read_unread, harg4.read_unread, harg5.read_unread, harg6.read_unread, harg7.read_unread, harg8.read_unread, View.ld_unit_zero (S := S2048x1024) hz, View.ld_unit_zero (S := S16x1024) hz, View.ld_unit_zero (S := S2048x16) hz, View.ld_unit_zero (S := S2048x2048) hz]

/-- First block, the carried accumulator: zeroed, then x·aᵀ added. -/
theorem sout_A (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S16x1024 .f32) (harg5 : arg5.IsWhole) (arg6 : Memref sig .tc .vmem S2048x16 .f32) (harg6 : arg6.IsWhole) (arg7 : Memref sig .tc .vmem S2048x2048 .f32) (harg7 : arg7.IsWhole) (arg8 : Memref sig .tc .vmem S2048x16 .f32) (harg8 : arg8.IsWhole) (hc0 : cond0_0 i) (hc1 : ¬cond0_1 i) (x0 : Vec F S2048x1024 .bf16) (x1 : Vec F S2048x1024 .bf16) (x2 : Vec F S16x1024 .f32) (x3 : Vec F S2048x16 .f32) :
    sout0_A_0 c i arg3 harg3 arg4 harg4 arg5 harg5 arg6 harg6 arg7 harg7 arg8 harg8 hc0 hc1 x0 x1 x2 x3 = k0_pay5 x0 x2 k0_pay2 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x16) hz, View.readCov_unit_zero (S := S2048x16) _ hz]
  simp only [View.readAt_eq_ld, harg3.read_unread, harg4.read_unread, harg5.read_unread, harg6.read_unread, harg7.read_unread, harg8.read_unread, View.ld_unit_zero (S := S2048x1024) hz, View.ld_unit_zero (S := S16x1024) hz, View.ld_unit_zero (S := S2048x16) hz, View.ld_unit_zero (S := S2048x2048) hz]

/-- A middle block, the output: the block product added to what the point before left. -/
theorem out_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S16x1024 .f32) (harg5 : arg5.IsWhole) (arg6 : Memref sig .tc .vmem S2048x16 .f32) (harg6 : arg6.IsWhole) (arg7 : Memref sig .tc .vmem S2048x2048 .f32) (harg7 : arg7.IsWhole) (arg8 : Memref sig .tc .vmem S2048x16 .f32) (harg8 : arg8.IsWhole) (hc0 : ¬cond0_0 i) (hc1 : ¬cond0_1 i) (x0 : Vec F S2048x1024 .bf16) (x1 : Vec F S2048x1024 .bf16) (x2 : Vec F S16x1024 .f32) (x3 : Vec F S2048x16 .f32) (xo4 : Vec F S2048x2048 .f32) (xs0 : Vec F S2048x16 .f32) :
    out0_B_4 c i arg3 harg3 arg4 harg4 arg5 harg5 arg6 harg6 arg7 harg7 arg8 harg8 hc0 hc1 x0 x1 x2 x3 xo4 xs0 = k0_pay4 x0 x1 xo4 := by
  unfold out0_B_4
  rw [View.read_writes_eq_canon _ _ _ (cover0_B_4 c i arg3 harg3 arg4 harg4 arg5 harg5 arg6 harg6 arg7 harg7 arg8 harg8 hc0 hc1 x0 x1 x2 x3 xo4 xs0)]
  unfold kernelRun0_B
  dsimp only
  rw [View.canon_unit_zero hz]
  simp only [View.readAt_eq_ld, harg3.read_unread, harg4.read_unread, harg5.read_unread, harg6.read_unread, harg7.read_unread, harg8.read_unread, View.ld_unit_zero (S := S2048x1024) hz, View.ld_unit_zero (S := S16x1024) hz, View.ld_unit_zero (S := S2048x16) hz, View.ld_unit_zero (S := S2048x2048) hz]

/-- A middle block, the carried accumulator. -/
theorem sout_B (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S16x1024 .f32) (harg5 : arg5.IsWhole) (arg6 : Memref sig .tc .vmem S2048x16 .f32) (harg6 : arg6.IsWhole) (arg7 : Memref sig .tc .vmem S2048x2048 .f32) (harg7 : arg7.IsWhole) (arg8 : Memref sig .tc .vmem S2048x16 .f32) (harg8 : arg8.IsWhole) (hc0 : ¬cond0_0 i) (hc1 : ¬cond0_1 i) (x0 : Vec F S2048x1024 .bf16) (x1 : Vec F S2048x1024 .bf16) (x2 : Vec F S16x1024 .f32) (x3 : Vec F S2048x16 .f32) (xo4 : Vec F S2048x2048 .f32) (xs0 : Vec F S2048x16 .f32) :
    sout0_B_0 c i arg3 harg3 arg4 harg4 arg5 harg5 arg6 harg6 arg7 harg7 arg8 harg8 hc0 hc1 x0 x1 x2 x3 xo4 xs0 = k0_pay5 x0 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xo4 xs0)]
  unfold kernelRun0_B
  dsimp only
  rw [View.canon_unit_zero hz]
  simp only [View.readAt_eq_ld, harg3.read_unread, harg4.read_unread, harg5.read_unread, harg6.read_unread, harg7.read_unread, harg8.read_unread, View.ld_unit_zero (S := S2048x1024) hz, View.ld_unit_zero (S := S16x1024) hz, View.ld_unit_zero (S := S2048x16) hz, View.ld_unit_zero (S := S2048x2048) hz]

/-- The last block, the output: the block product added, then the scaled correction, which reads the carried
    accumulator AFTER this point's own x·aᵀ was added to it. -/
theorem out_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S16x1024 .f32) (harg5 : arg5.IsWhole) (arg6 : Memref sig .tc .vmem S2048x16 .f32) (harg6 : arg6.IsWhole) (arg7 : Memref sig .tc .vmem S2048x2048 .f32) (harg7 : arg7.IsWhole) (arg8 : Memref sig .tc .vmem S2048x16 .f32) (harg8 : arg8.IsWhole) (hc0 : ¬cond0_0 i) (hc1 : cond0_1 i) (x0 : Vec F S2048x1024 .bf16) (x1 : Vec F S2048x1024 .bf16) (x2 : Vec F S16x1024 .f32) (x3 : Vec F S2048x16 .f32) (xo4 : Vec F S2048x2048 .f32) (xs0 : Vec F S2048x16 .f32) :
    out0_C_4 c i arg3 harg3 arg4 harg4 arg5 harg5 arg6 harg6 arg7 harg7 arg8 harg8 hc0 hc1 x0 x1 x2 x3 xo4 xs0 = k0_pay6 (k0_pay5 x0 x2 xs0) x3 (k0_pay4 x0 x1 xo4) := by
  unfold out0_C_4
  rw [View.read_writes_eq_canon _ _ _ (cover0_C_4 c i arg3 harg3 arg4 harg4 arg5 harg5 arg6 harg6 arg7 harg7 arg8 harg8 hc0 hc1 x0 x1 x2 x3 xo4 xs0)]
  unfold kernelRun0_C
  dsimp only
  sl_unfold_words
  rw [View.canon_cons_unit_zero (S := S2048x2048) hz, View.readCov_unit_zero (S := S2048x16) _ hz,
    View.readCov_unit_zero (S := S2048x2048) _ hz]
  simp only [View.readAt_eq_ld, harg3.read_unread, harg4.read_unread, harg5.read_unread, harg6.read_unread, harg7.read_unread, harg8.read_unread, View.ld_unit_zero (S := S2048x1024) hz, View.ld_unit_zero (S := S16x1024) hz, View.ld_unit_zero (S := S2048x16) hz, View.ld_unit_zero (S := S2048x2048) hz]

/-- The last block, the carried accumulator. -/
theorem sout_C (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S16x1024 .f32) (harg5 : arg5.IsWhole) (arg6 : Memref sig .tc .vmem S2048x16 .f32) (harg6 : arg6.IsWhole) (arg7 : Memref sig .tc .vmem S2048x2048 .f32) (harg7 : arg7.IsWhole) (arg8 : Memref sig .tc .vmem S2048x16 .f32) (harg8 : arg8.IsWhole) (hc0 : ¬cond0_0 i) (hc1 : cond0_1 i) (x0 : Vec F S2048x1024 .bf16) (x1 : Vec F S2048x1024 .bf16) (x2 : Vec F S16x1024 .f32) (x3 : Vec F S2048x16 .f32) (xo4 : Vec F S2048x2048 .f32) (xs0 : Vec F S2048x16 .f32) :
    sout0_C_0 c i arg3 harg3 arg4 harg4 arg5 harg5 arg6 harg6 arg7 harg7 arg8 harg8 hc0 hc1 x0 x1 x2 x3 xo4 xs0 = k0_pay5 x0 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xo4 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, View.ld_unit_zero (S := S2048x1024) hz, View.ld_unit_zero (S := S16x1024) hz, View.ld_unit_zero (S := S2048x16) hz, View.ld_unit_zero (S := S2048x2048) hz]

end Cert.KernelIdeal.Pieces

end
-- ==== Proof.Payload.lean ====
/-
  The body's arithmetic read at an index, on the extended reals. Each of the three block products contracts the last
  axis of both operands, so its entry (r, c) is the sum over l of left[r, l] * right[c, l]; a product into the zero
  accumulator is that sum alone, and the change of float format of the low-rank factor is the identity here.

    acc4 x w acc (r, c) = acc (r, c) + ∑ l < 1024, x[r, l] * w[c, l]
    acc5 x a acc (r, ρ) = acc (r, ρ) + ∑ l < 1024, x[r, l] * a[ρ, l]
    fin6 q b acc (r, c) = acc (r, c) + (∑ ρ < 16, q[r, ρ] * b[c, ρ]) * 2
-/
import proofs.«108152_j21388937134483_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Pay

open Cert.KernelIdeal Cert.KernelIdeal.Gen

/-- The base product of a point: rows of the input block against rows of the weight block. -/
theorem mm_xw (x : FVec Ideal S2048x1024 .bf16) (y : FVec Ideal S2048x1024 .bf16) (r : Fin 2048) (c : Fin 2048) :
    matmul dot_S2048x1024_S2048x1024_S2048x2048_1_1_0_0_n_n none x y (constant S2048x2048 .f32 0x00000000#32) (ix2 r c)
      = ∑ l : Fin 1024, x (ix2 r l) * y (ix2 c l) := by
  refine (Ideal.matmul_constant_zero_apply dot_S2048x1024_S2048x1024_S2048x2048_1_1_0_0_n_n none x y (ix2 r c)).trans ?_
  rw [← Equiv.sum_comp (contrEquiv1 dot_S2048x1024_S2048x1024_S2048x2048_1_1_0_0_n_n 1024 rfl rfl).symm]
  refine Finset.sum_congr rfl fun k _ => ?_
  have hk := contrEquiv1_symm_val dot_S2048x1024_S2048x1024_S2048x2048_1_1_0_0_n_n 1024 rfl rfl k
  have el : dot_S2048x1024_S2048x1024_S2048x2048_1_1_0_0_n_n.lhsIdx (ix2 r c) ((contrEquiv1 dot_S2048x1024_S2048x1024_S2048x2048_1_1_0_0_n_n 1024 rfl rfl).symm k) = ix2 r k := funext fun a => Fin.ext (by
    match a with
    | ⟨0, _⟩ =>
      show (dot_S2048x1024_S2048x1024_S2048x2048_1_1_0_0_n_n.lhsIdx (ix2 r c) _ 0).val = r.val
      unfold DotDims.lhsIdx
      rw [dif_neg (show ¬(0 : Fin S2048x1024.rank) ∈ dot_S2048x1024_S2048x1024_S2048x2048_1_1_0_0_n_n.lhsBatch by decide), dif_pos (show (0 : Fin S2048x1024.rank) ∈ dot_S2048x1024_S2048x1024_S2048x2048_1_1_0_0_n_n.lhsNonContracting by decide)]
      rfl
    | ⟨1, _⟩ => exact (dot_S2048x1024_S2048x1024_S2048x2048_1_1_0_0_n_n.lhsIdx_val_of_single rfl (ix2 r c) _).trans hk)
  have er : dot_S2048x1024_S2048x1024_S2048x2048_1_1_0_0_n_n.rhsIdx (ix2 r c) ((contrEquiv1 dot_S2048x1024_S2048x1024_S2048x2048_1_1_0_0_n_n 1024 rfl rfl).symm k) = ix2 c k := funext fun a => Fin.ext (by
    match a with
    | ⟨0, _⟩ =>
      show (dot_S2048x1024_S2048x1024_S2048x2048_1_1_0_0_n_n.rhsIdx (ix2 r c) _ 0).val = c.val
      unfold DotDims.rhsIdx
      rw [dif_neg (show ¬(0 : Fin S2048x1024.rank) ∈ dot_S2048x1024_S2048x1024_S2048x2048_1_1_0_0_n_n.rhsBatch by decide), dif_pos (show (0 : Fin S2048x1024.rank) ∈ dot_S2048x1024_S2048x1024_S2048x2048_1_1_0_0_n_n.rhsNonContracting by decide)]
      rfl
    | ⟨1, _⟩ => exact (dot_S2048x1024_S2048x1024_S2048x2048_1_1_0_0_n_n.rhsIdx_val_of_single rfl (ix2 r c) _).trans hk)
  rw [el, er]

/-- The low-rank projection of a point: rows of the input block against the rows of the first factor's block. -/
theorem mm_xa (x : FVec Ideal S2048x1024 .bf16) (y : FVec Ideal S16x1024 .bf16) (r : Fin 2048) (c : Fin 16) :
    matmul dot_S2048x1024_S16x1024_S2048x16_1_1_0_0_n_n none x y (constant S2048x16 .f32 0x00000000#32) (ix2 r c)
      = ∑ l : Fin 1024, x (ix2 r l) * y (ix2 c l) := by
  refine (Ideal.matmul_constant_zero_apply dot_S2048x1024_S16x1024_S2048x16_1_1_0_0_n_n none x y (ix2 r c)).trans ?_
  rw [← Equiv.sum_comp (contrEquiv1 dot_S2048x1024_S16x1024_S2048x16_1_1_0_0_n_n 1024 rfl rfl).symm]
  refine Finset.sum_congr rfl fun k _ => ?_
  have hk := contrEquiv1_symm_val dot_S2048x1024_S16x1024_S2048x16_1_1_0_0_n_n 1024 rfl rfl k
  have el : dot_S2048x1024_S16x1024_S2048x16_1_1_0_0_n_n.lhsIdx (ix2 r c) ((contrEquiv1 dot_S2048x1024_S16x1024_S2048x16_1_1_0_0_n_n 1024 rfl rfl).symm k) = ix2 r k := funext fun a => Fin.ext (by
    match a with
    | ⟨0, _⟩ =>
      show (dot_S2048x1024_S16x1024_S2048x16_1_1_0_0_n_n.lhsIdx (ix2 r c) _ 0).val = r.val
      unfold DotDims.lhsIdx
      rw [dif_neg (show ¬(0 : Fin S2048x1024.rank) ∈ dot_S2048x1024_S16x1024_S2048x16_1_1_0_0_n_n.lhsBatch by decide), dif_pos (show (0 : Fin S2048x1024.rank) ∈ dot_S2048x1024_S16x1024_S2048x16_1_1_0_0_n_n.lhsNonContracting by decide)]
      rfl
    | ⟨1, _⟩ => exact (dot_S2048x1024_S16x1024_S2048x16_1_1_0_0_n_n.lhsIdx_val_of_single rfl (ix2 r c) _).trans hk)
  have er : dot_S2048x1024_S16x1024_S2048x16_1_1_0_0_n_n.rhsIdx (ix2 r c) ((contrEquiv1 dot_S2048x1024_S16x1024_S2048x16_1_1_0_0_n_n 1024 rfl rfl).symm k) = ix2 c k := funext fun a => Fin.ext (by
    match a with
    | ⟨0, _⟩ =>
      show (dot_S2048x1024_S16x1024_S2048x16_1_1_0_0_n_n.rhsIdx (ix2 r c) _ 0).val = c.val
      unfold DotDims.rhsIdx
      rw [dif_neg (show ¬(0 : Fin S16x1024.rank) ∈ dot_S2048x1024_S16x1024_S2048x16_1_1_0_0_n_n.rhsBatch by decide), dif_pos (show (0 : Fin S16x1024.rank) ∈ dot_S2048x1024_S16x1024_S2048x16_1_1_0_0_n_n.rhsNonContracting by decide)]
      rfl
    | ⟨1, _⟩ => exact (dot_S2048x1024_S16x1024_S2048x16_1_1_0_0_n_n.rhsIdx_val_of_single rfl (ix2 r c) _).trans hk)
  rw [el, er]

/-- The correction: rows of the projected input against rows of the second factor's block. -/
theorem mm_rb (x : FVec Ideal S2048x16 .f32) (y : FVec Ideal S2048x16 .f32) (r : Fin 2048) (c : Fin 2048) :
    matmul dot_S2048x16_S2048x16_S2048x2048_1_1_0_0_n_n none x y (constant S2048x2048 .f32 0x00000000#32) (ix2 r c)
      = ∑ l : Fin 16, x (ix2 r l) * y (ix2 c l) := by
  refine (Ideal.matmul_constant_zero_apply dot_S2048x16_S2048x16_S2048x2048_1_1_0_0_n_n none x y (ix2 r c)).trans ?_
  rw [← Equiv.sum_comp (contrEquiv1 dot_S2048x16_S2048x16_S2048x2048_1_1_0_0_n_n 16 rfl rfl).symm]
  refine Finset.sum_congr rfl fun k _ => ?_
  have hk := contrEquiv1_symm_val dot_S2048x16_S2048x16_S2048x2048_1_1_0_0_n_n 16 rfl rfl k
  have el : dot_S2048x16_S2048x16_S2048x2048_1_1_0_0_n_n.lhsIdx (ix2 r c) ((contrEquiv1 dot_S2048x16_S2048x16_S2048x2048_1_1_0_0_n_n 16 rfl rfl).symm k) = ix2 r k := funext fun a => Fin.ext (by
    match a with
    | ⟨0, _⟩ =>
      show (dot_S2048x16_S2048x16_S2048x2048_1_1_0_0_n_n.lhsIdx (ix2 r c) _ 0).val = r.val
      unfold DotDims.lhsIdx
      rw [dif_neg (show ¬(0 : Fin S2048x16.rank) ∈ dot_S2048x16_S2048x16_S2048x2048_1_1_0_0_n_n.lhsBatch by decide), dif_pos (show (0 : Fin S2048x16.rank) ∈ dot_S2048x16_S2048x16_S2048x2048_1_1_0_0_n_n.lhsNonContracting by decide)]
      rfl
    | ⟨1, _⟩ => exact (dot_S2048x16_S2048x16_S2048x2048_1_1_0_0_n_n.lhsIdx_val_of_single rfl (ix2 r c) _).trans hk)
  have er : dot_S2048x16_S2048x16_S2048x2048_1_1_0_0_n_n.rhsIdx (ix2 r c) ((contrEquiv1 dot_S2048x16_S2048x16_S2048x2048_1_1_0_0_n_n 16 rfl rfl).symm k) = ix2 c k := funext fun a => Fin.ext (by
    match a with
    | ⟨0, _⟩ =>
      show (dot_S2048x16_S2048x16_S2048x2048_1_1_0_0_n_n.rhsIdx (ix2 r c) _ 0).val = c.val
      unfold DotDims.rhsIdx
      rw [dif_neg (show ¬(0 : Fin S2048x16.rank) ∈ dot_S2048x16_S2048x16_S2048x2048_1_1_0_0_n_n.rhsBatch by decide), dif_pos (show (0 : Fin S2048x16.rank) ∈ dot_S2048x16_S2048x16_S2048x2048_1_1_0_0_n_n.rhsNonContracting by decide)]
      rfl
    | ⟨1, _⟩ => exact (dot_S2048x16_S2048x16_S2048x2048_1_1_0_0_n_n.rhsIdx_val_of_single rfl (ix2 r c) _).trans hk)
  rw [el, er]

/-- The zero block the first point stores in the output. -/
theorem pay1_apply (j : S2048x2048.Idx) : k0_pay1 (F := Ideal) j = 0 := by
  unfold k0_pay1
  exact Ideal.ofBits_zero_f32

/-- The zero block the first point stores in the carried accumulator. -/
theorem pay2_apply (j : S2048x16.Idx) : k0_pay2 (F := Ideal) j = 0 := by
  unfold k0_pay2
  try dsimp only
  rw [shapeCast_self]
  exact Ideal.ofBits_zero_f32

/-- The output's update: the base product of the point added to the accumulated block. -/
theorem pay4_apply (x0 x1 : FVec Ideal S2048x1024 .bf16) (acc : FVec Ideal S2048x2048 .f32) (r c : Fin 2048) :
    k0_pay4 (F := Ideal) x0 x1 acc (ix2 r c) = acc (ix2 r c) + ∑ l : Fin 1024, x0 (ix2 r l) * x1 (ix2 c l) := by
  unfold k0_pay4 k0_pay3
  try dsimp only
  simp only [shapeCast_self]
  exact congrArg (acc (ix2 r c) + ·) (mm_xw x0 x1 r c)

/-- The carried accumulator's update: the projection of the point added to it. -/
theorem pay5_apply (x0 : FVec Ideal S2048x1024 .bf16) (x2 : FVec Ideal S16x1024 .f32) (acc : FVec Ideal S2048x16 .f32)
    (r : Fin 2048) (ρ : Fin 16) :
    k0_pay5 (F := Ideal) x0 x2 acc (ix2 r ρ) = acc (ix2 r ρ) + ∑ l : Fin 1024, x0 (ix2 r l) * x2 (ix2 ρ l) := by
  unfold k0_pay5 k0_pay3
  try dsimp only
  simp only [shapeCast_self]
  exact congrArg (acc (ix2 r ρ) + ·) (mm_xa x0 (truncf .bf16 x2 bitsLt_bf16_f32) r ρ)

/-- The last point's epilogue: the scaled correction added to the accumulated block. -/
theorem pay6_apply (q b : FVec Ideal S2048x16 .f32) (acc : FVec Ideal S2048x2048 .f32) (r c : Fin 2048) :
    k0_pay6 (F := Ideal) q b acc (ix2 r c)
      = acc (ix2 r c) + (∑ ρ : Fin 16, q (ix2 r ρ) * b (ix2 c ρ)) * Ideal.ofBits .f32 0x40000000#32 := by
  unfold k0_pay6
  try dsimp only
  simp only [shapeCast_self]
  exact congrArg (fun z => acc (ix2 r c) + z * Ideal.ofBits .f32 0x40000000#32) (mm_rb q b r c)

end Cert.KernelIdeal.Pay

end
-- ==== Proof.Accum.lean ====
/-
  The accumulation over the grid. Four consecutive points share an output block; along them the output block and the
  carried accumulator collect the contraction 1024 columns at a time. After point t, with i = t / 8, j = t / 4 % 2 and
  k = t % 4:

    the carried accumulator, at (r, ρ), is row 2048 i + r of the flattened input against row ρ of the first low-rank
      factor over the first 1024 (k + 1) columns;
    the output block, at (r, c), is that row against row 2048 j + c of the weights over the same columns — and at the
      last block (k = 3) it is the finished layer: the whole contraction plus the scaled correction.

  Proved by recursion on the point: the first block starts both sums from zero, a later block extends the segment the
  point before left ('Finset.sum_range_add'), the last block adds the correction, which reads the accumulator after
  its own update. Addition on the extended reals is a commutative monoid: no entry needs to be finite.
-/
import proofs.«108152_j21388937134483_2_alg».proof.Proof.Gen.KernelIdeal.Frame
import proofs.«108152_j21388937134483_2_alg».proof.Proof.Spec
import proofs.«108152_j21388937134483_2_alg».proof.Proof.Pieces
import proofs.«108152_j21388937134483_2_alg».proof.Proof.Payload
import proofs.«108152_j21388937134483_2_alg».proof.Proof.Blocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Spec

/-! ## One block of the contraction, on any arrays -/

/-- The output's update extends the base product's segment by the point's 1024 columns. -/
theorem step_base (X : Arr2 8192 4096) (W : Arr2 4096 4096) (x0 x1 : FVec Ideal S2048x1024 .bf16)
    (acc : FVec Ideal S2048x2048 .f32) (R0 O0 K0 : ℕ)
    (h0 : ∀ (r : Fin 2048) (l : Fin 1024), x0 (ix2 r l) = at2 X (R0 + r.val) (K0 + l.val))
    (h1 : ∀ (c : Fin 2048) (l : Fin 1024), x1 (ix2 c l) = at2 W (O0 + c.val) (K0 + l.val))
    (r c : Fin 2048) (hacc : acc (ix2 r c) = dotTo X W (R0 + r.val) (O0 + c.val) K0) :
    k0_pay4 (F := Ideal) x0 x1 acc (ix2 r c) = dotTo X W (R0 + r.val) (O0 + c.val) (K0 + 1024) := by
  rw [Pay.pay4_apply x0 x1 acc r c, hacc, dotTo_add X W (R0 + r.val) (O0 + c.val) K0 1024]
  refine congrArg (dotTo X W (R0 + r.val) (O0 + c.val) K0 + ·) ?_
  exact (Finset.sum_congr rfl fun l _ => by rw [h0 r l, h1 c l]).trans
    (Finset.sum_range fun l => at2 X (R0 + r.val) (K0 + l) * at2 W (O0 + c.val) (K0 + l)).symm

/-- The carried accumulator's update extends the projection's segment by the point's 1024 columns. -/
theorem step_proj (X : Arr2 8192 4096) (A : Arr2 16 4096) (x0 : FVec Ideal S2048x1024 .bf16) (x2 : FVec Ideal S16x1024 .f32)
    (acc : FVec Ideal S2048x16 .f32) (R0 K0 : ℕ)
    (h0 : ∀ (r : Fin 2048) (l : Fin 1024), x0 (ix2 r l) = at2 X (R0 + r.val) (K0 + l.val))
    (h2 : ∀ (ρ : Fin 16) (l : Fin 1024), x2 (ix2 ρ l) = at2 A ρ.val (K0 + l.val))
    (r : Fin 2048) (ρ : Fin 16) (hacc : acc (ix2 r ρ) = dotTo X A (R0 + r.val) ρ.val K0) :
    k0_pay5 (F := Ideal) x0 x2 acc (ix2 r ρ) = dotTo X A (R0 + r.val) ρ.val (K0 + 1024) := by
  rw [Pay.pay5_apply x0 x2 acc r ρ, hacc, dotTo_add X A (R0 + r.val) ρ.val K0 1024]
  refine congrArg (dotTo X A (R0 + r.val) ρ.val K0 + ·) ?_
  exact (Finset.sum_congr rfl fun l _ => by rw [h0 r l, h2 ρ l]).trans
    (Finset.sum_range fun l => at2 X (R0 + r.val) (K0 + l) * at2 A ρ.val (K0 + l)).symm

/-- The epilogue on a finished base product and a finished projection is the layer. -/
theorem step_fin (X : Arr2 8192 4096) (W : Arr2 4096 4096) (A : Arr2 16 4096) (B : Arr2 4096 16)
    (q b : FVec Ideal S2048x16 .f32) (acc : FVec Ideal S2048x2048 .f32) (R0 O0 : ℕ)
    (hq : ∀ (r : Fin 2048) (ρ : Fin 16), q (ix2 r ρ) = dotTo X A (R0 + r.val) ρ.val 4096)
    (hb : ∀ (c : Fin 2048) (ρ : Fin 16), b (ix2 c ρ) = at2 B (O0 + c.val) ρ.val)
    (r c : Fin 2048) (hacc : acc (ix2 r c) = dotTo X W (R0 + r.val) (O0 + c.val) 4096) :
    k0_pay6 (F := Ideal) q b acc (ix2 r c) = out2 X W A B (R0 + r.val) (O0 + c.val) := by
  rw [Pay.pay6_apply q b acc r c, hacc]
  unfold out2
  refine congrArg (fun z => dotTo X W (R0 + r.val) (O0 + c.val) 4096 + z * scale) ?_
  exact (Finset.sum_congr rfl fun ρ _ => by rw [hq r ρ, hb c ρ]).trans
    (Finset.sum_range fun ρ => dotTo X A (R0 + r.val) ρ 4096 * at2 B (O0 + c.val) ρ).symm

/-! ## What the three cases leave, over the point's blocks -/

variable (m : (ℓ : Loc nD τ sig) → Buf (Elt Ideal) ℓ)

theorem outs_A (c : Dev nD) (t : Fin cfg0.N) (h0 : t.val % 4 = 0) :
    outsAt0 m c t.val t.isLt
      = (k0_pay4 (iblk m c 0 t) (iblk m c 1 t) (k0_pay1 (F := Ideal)), k0_pay5 (iblk m c 0 t) (iblk m c 2 t) (k0_pay2 (F := Ideal))) := by
  have h1 : ¬t.val % 4 = 3 := by omega
  rw [outsAt0_A m c t h0 h1]
  exact congrArg₂ Prod.mk
    (Pieces.out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))
    (Pieces.sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))

theorem outs_B (c : Dev nD) (t : Fin cfg0.N) (h0 : ¬t.val % 4 = 0) (h1 : ¬t.val % 4 = 3) :
    outsAt0 m c t.val t.isLt
      = (k0_pay4 (iblk m c 0 t) (iblk m c 1 t) (outsAt0 m c (t.val - 1) (Nat.lt_of_le_of_lt (Nat.sub_le _ _) t.isLt)).1, k0_pay5 (iblk m c 0 t) (iblk m c 2 t) (outsAt0 m c (t.val - 1) (Nat.lt_of_le_of_lt (Nat.sub_le _ _) t.isLt)).2) := by
  rw [outsAt0_B m c t h0 h1]
  exact congrArg₂ Prod.mk
    (Pieces.out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2)
    (Pieces.sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2)

theorem outs_C (c : Dev nD) (t : Fin cfg0.N) (h0 : ¬t.val % 4 = 0) (h1 : t.val % 4 = 3) :
    outsAt0 m c t.val t.isLt
      = (k0_pay6 (k0_pay5 (iblk m c 0 t) (iblk m c 2 t) (outsAt0 m c (t.val - 1) (Nat.lt_of_le_of_lt (Nat.sub_le _ _) t.isLt)).2) (iblk m c 3 t) (k0_pay4 (iblk m c 0 t) (iblk m c 1 t) (outsAt0 m c (t.val - 1) (Nat.lt_of_le_of_lt (Nat.sub_le _ _) t.isLt)).1),
         k0_pay5 (iblk m c 0 t) (iblk m c 2 t) (outsAt0 m c (t.val - 1) (Nat.lt_of_le_of_lt (Nat.sub_le _ _) t.isLt)).2) := by
  rw [outsAt0_C m c t h0 h1]
  exact congrArg₂ Prod.mk
    (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2)
    (Pieces.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2)

/-! ## The invariant -/

/-- The four arrays as the region finds them: the flattened input, the weights, the two low-rank factors. -/
abbrev aX (c : Dev nD) : Arr2 8192 4096 := V m c main_v1
abbrev aW (c : Dev nD) : Arr2 4096 4096 := V m c main_v2
abbrev aA (c : Dev nD) : Arr2 16 4096 := V m c main_arg2
abbrev aB (c : Dev nD) : Arr2 4096 16 := V m c main_arg3

/-- What the output block and the carried accumulator hold after point n. -/
def Inv (c : Dev nD) (n : ℕ) (h : n < cfg0.N) : Prop :=
  (∀ (r : Fin 2048) (ρ : Fin 16), (outsAt0 m c n h).2 (ix2 r ρ)
      = dotTo (aX m c) (aA m c) (2048 * (n / 8) + r.val) ρ.val (1024 * (n % 4) + 1024))
  ∧ (¬n % 4 = 3 → ∀ (r cc : Fin 2048), (outsAt0 m c n h).1 (ix2 r cc)
      = dotTo (aX m c) (aW m c) (2048 * (n / 8) + r.val) (2048 * (n / 4 % 2) + cc.val) (1024 * (n % 4) + 1024))
  ∧ (n % 4 = 3 → ∀ (r cc : Fin 2048), (outsAt0 m c n h).1 (ix2 r cc)
      = out2 (aX m c) (aW m c) (aA m c) (aB m c) (2048 * (n / 8) + r.val) (2048 * (n / 4 % 2) + cc.val))

/-- A first block: both sums start from zero. -/
theorem inv_A (c : Dev nD) (t : Fin cfg0.N) (h0 : t.val % 4 = 0) : Inv m c t.val t.isLt := by
  have h1 : ¬t.val % 4 = 3 := by omega
  unfold Inv
  rw [outs_A m c t h0]
  refine ⟨fun r ρ => ?_, fun _ r cc => ?_, fun h3 => absurd h3 h1⟩
  · exact step_proj (aX m c) (aA m c) (iblk m c 0 t) (iblk m c 2 t) (k0_pay2 (F := Ideal)) (2048 * (t.val / 8)) (1024 * (t.val % 4))
      (fun r l => Blocks.iblk0_apply m c t r l) (fun ρ l => Blocks.iblk2_apply m c t ρ l) r ρ
      (by rw [Pay.pay2_apply, h0, Nat.mul_zero, dotTo_zero])
  · exact step_base (aX m c) (aW m c) (iblk m c 0 t) (iblk m c 1 t) (k0_pay1 (F := Ideal)) (2048 * (t.val / 8)) (2048 * (t.val / 4 % 2))
      (1024 * (t.val % 4)) (fun r l => Blocks.iblk0_apply m c t r l) (fun cc l => Blocks.iblk1_apply m c t cc l) r cc
      (by rw [Pay.pay1_apply, h0, Nat.mul_zero, dotTo_zero])

/-- What the point before a later block left, restated at this point's row and column blocks: its segment ends where
    this point's begins. -/
theorem prev_proj (c : Dev nD) (t : Fin cfg0.N) (h0 : ¬t.val % 4 = 0)
    (ih : Inv m c (t.val - 1) (Nat.lt_of_le_of_lt (Nat.sub_le _ _) t.isLt)) (r : Fin 2048) (ρ : Fin 16) :
    (outsAt0 m c (t.val - 1) (Nat.lt_of_le_of_lt (Nat.sub_le _ _) t.isLt)).2 (ix2 r ρ) = dotTo (aX m c) (aA m c) (2048 * (t.val / 8) + r.val) ρ.val (1024 * (t.val % 4)) := by
  have e1 : (t.val - 1) / 8 = t.val / 8 := by omega
  have e3 : 1024 * ((t.val - 1) % 4) + 1024 = 1024 * (t.val % 4) := by omega
  have := ih.1 r ρ
  rw [e1, e3] at this
  exact this

theorem prev_base (c : Dev nD) (t : Fin cfg0.N) (h0 : ¬t.val % 4 = 0)
    (ih : Inv m c (t.val - 1) (Nat.lt_of_le_of_lt (Nat.sub_le _ _) t.isLt)) (r cc : Fin 2048) :
    (outsAt0 m c (t.val - 1) (Nat.lt_of_le_of_lt (Nat.sub_le _ _) t.isLt)).1 (ix2 r cc)
      = dotTo (aX m c) (aW m c) (2048 * (t.val / 8) + r.val) (2048 * (t.val / 4 % 2) + cc.val) (1024 * (t.val % 4)) := by
  have e1 : (t.val - 1) / 8 = t.val / 8 := by omega
  have e2 : (t.val - 1) / 4 % 2 = t.val / 4 % 2 := by omega
  have e3 : 1024 * ((t.val - 1) % 4) + 1024 = 1024 * (t.val % 4) := by omega
  have := ih.2.1 (by omega) r cc
  rw [e1, e2, e3] at this
  exact this

/-- The updates of a later block, over what the point before left. -/
theorem next_proj (c : Dev nD) (t : Fin cfg0.N) (h0 : ¬t.val % 4 = 0)
    (ih : Inv m c (t.val - 1) (Nat.lt_of_le_of_lt (Nat.sub_le _ _) t.isLt)) (r : Fin 2048) (ρ : Fin 16) :
    k0_pay5 (F := Ideal) (iblk m c 0 t) (iblk m c 2 t) (outsAt0 m c (t.val - 1) (Nat.lt_of_le_of_lt (Nat.sub_le _ _) t.isLt)).2 (ix2 r ρ)
      = dotTo (aX m c) (aA m c) (2048 * (t.val / 8) + r.val) ρ.val (1024 * (t.val % 4) + 1024) :=
  step_proj (aX m c) (aA m c) (iblk m c 0 t) (iblk m c 2 t) (outsAt0 m c (t.val - 1) (Nat.lt_of_le_of_lt (Nat.sub_le _ _) t.isLt)).2 (2048 * (t.val / 8)) (1024 * (t.val % 4))
    (fun r l => Blocks.iblk0_apply m c t r l) (fun ρ l => Blocks.iblk2_apply m c t ρ l) r ρ (prev_proj m c t h0 ih r ρ)

theorem next_base (c : Dev nD) (t : Fin cfg0.N) (h0 : ¬t.val % 4 = 0)
    (ih : Inv m c (t.val - 1) (Nat.lt_of_le_of_lt (Nat.sub_le _ _) t.isLt)) (r cc : Fin 2048) :
    k0_pay4 (F := Ideal) (iblk m c 0 t) (iblk m c 1 t) (outsAt0 m c (t.val - 1) (Nat.lt_of_le_of_lt (Nat.sub_le _ _) t.isLt)).1 (ix2 r cc)
      = dotTo (aX m c) (aW m c) (2048 * (t.val / 8) + r.val) (2048 * (t.val / 4 % 2) + cc.val) (1024 * (t.val % 4) + 1024) :=
  step_base (aX m c) (aW m c) (iblk m c 0 t) (iblk m c 1 t) (outsAt0 m c (t.val - 1) (Nat.lt_of_le_of_lt (Nat.sub_le _ _) t.isLt)).1 (2048 * (t.val / 8)) (2048 * (t.val / 4 % 2))
    (1024 * (t.val % 4)) (fun r l => Blocks.iblk0_apply m c t r l) (fun cc l => Blocks.iblk1_apply m c t cc l) r cc
    (prev_base m c t h0 ih r cc)

/-- A middle block. -/
theorem inv_B (c : Dev nD) (t : Fin cfg0.N) (h0 : ¬t.val % 4 = 0) (h1 : ¬t.val % 4 = 3)
    (ih : Inv m c (t.val - 1) (Nat.lt_of_le_of_lt (Nat.sub_le _ _) t.isLt)) : Inv m c t.val t.isLt := by
  unfold Inv
  rw [outs_B m c t h0 h1]
  exact ⟨fun r ρ => next_proj m c t h0 ih r ρ, fun _ r cc => next_base m c t h0 ih r cc, fun h3 => absurd h3 h1⟩

/-- The last block: both segments are whole, and the epilogue makes the layer of them. -/
theorem inv_C (c : Dev nD) (t : Fin cfg0.N) (h0 : ¬t.val % 4 = 0) (h1 : t.val % 4 = 3)
    (ih : Inv m c (t.val - 1) (Nat.lt_of_le_of_lt (Nat.sub_le _ _) t.isLt)) : Inv m c t.val t.isLt := by
  have e : 1024 * (t.val % 4) + 1024 = 4096 := by omega
  unfold Inv
  rw [outs_C m c t h0 h1]
  refine ⟨fun r ρ => next_proj m c t h0 ih r ρ, fun h3 => absurd h1 h3, fun _ r cc => ?_⟩
  exact step_fin (aX m c) (aW m c) (aA m c) (aB m c) _ (iblk m c 3 t) _ (2048 * (t.val / 8)) (2048 * (t.val / 4 % 2))
    (fun r ρ => (next_proj m c t h0 ih r ρ).trans (by rw [e]))
    (fun cc ρ => Blocks.iblk3_apply m c t cc ρ) r cc ((next_base m c t h0 ih r cc).trans (by rw [e]))

/-- The invariant at every point. -/
theorem inv (c : Dev nD) : ∀ (n : ℕ) (h : n < cfg0.N), Inv m c n h
  | 0, h => inv_A m c ⟨0, h⟩ rfl
  | n + 1, h => by
    have ih := inv c n (Nat.lt_of_succ_lt h)
    by_cases h0 : (n + 1) % 4 = 0
    · exact inv_A m c ⟨n + 1, h⟩ h0
    · by_cases h1 : (n + 1) % 4 = 3
      · exact inv_C m c ⟨n + 1, h⟩ h0 h1 ih
      · exact inv_B m c ⟨n + 1, h⟩ h0 h1 ih

end Cert.KernelIdeal.Accum

end
-- ==== Proof.LibFlatten.lean ====
/-
  A reshape that merges the two leading axes of a three-axis array into one, or splits the leading axis of a two-axis
  array into two, read at an index. Row-major order puts entry (p, q, k) of an [a, b, c] array at position
  (p * b + q) * c + k, and entry (R, k) of an [n, c] array at R * c + k: the two agree exactly when R = b * p + q.
-/
import Idealize.ShloMosaic.Lib.Pipeline.Value
import Idealize.ShloMosaic.Lib.ValueIdx

namespace Cert.LibFlatten

open Idealize.ShloMosaic Idealize.ShloMosaic.ValueIdx

/-- Merging the two leading axes: row b * p + q of the result is row (p, q) of the operand. -/
theorem merge_apply {α : Type} {a b c n : ℕ} (x : (⟨3, ![a, b, c]⟩ : Shape).Idx → α)
    (h : (⟨3, ![a, b, c]⟩ : Shape).ShapeCasts ⟨2, ![n, c]⟩) (p : Fin a) (q : Fin b) (k : Fin c) (R : Fin n)
    (hR : R.val = b * p.val + q.val) :
    shapeCast ⟨2, ![n, c]⟩ x h (ix2 R k) = x (ix3 p q k) :=
  shapeCast_apply x h (ix2 R k) (ix3 p q k) (by
    rw [Shape.rowMajor_val_three, Shape.rowMajor_val_two]
    show (p.val * b + q.val) * c + k.val = R.val * c + k.val
    rw [hR, Nat.mul_comm b p.val])

/-- Splitting the leading axis: entry (p, q) of the result is row b * p + q of the operand. -/
theorem split_apply {α : Type} {a b c n : ℕ} (y : (⟨2, ![n, c]⟩ : Shape).Idx → α)
    (h : (⟨2, ![n, c]⟩ : Shape).ShapeCasts ⟨3, ![a, b, c]⟩) (p : Fin a) (q : Fin b) (k : Fin c) (R : Fin n)
    (hR : R.val = b * p.val + q.val) :
    shapeCast ⟨3, ![a, b, c]⟩ y h (ix3 p q k) = y (ix2 R k) :=
  shapeCast_apply y h (ix3 p q k) (ix2 R k) (by
    rw [Shape.rowMajor_val_three, Shape.rowMajor_val_two]
    show R.val * c + k.val = (p.val * b + q.val) * c + k.val
    rw [hR, Nat.mul_comm b p.val])

end Cert.LibFlatten
-- ==== Proof.Final.lean ====
/-
  The kernel's run, read. Every index (R, o) of the region's [8192, 4096] result lies in the output block of exactly
  the points with row block R / 2048 and column block o / 2048; that block is written back once, after its last
  point (k = 3), when it holds the finished layer. So the region's result array is the layer on rows, at every index.
  Around the region the host only re-lays data: before it, the input's two leading axes are merged (row 2048 b + s
  of the flattened input is row (b, s) of the input; the change of float format is the identity on the extended
  reals); after it, the result's leading axis is split back. The program's result is therefore the specification
  'Spec.G' of the four argument arrays.
-/
import proofs.«108152_j21388937134483_2_alg».proof.Proof.Gen.KernelIdeal.Frame
import proofs.«108152_j21388937134483_2_alg».proof.Proof.Spec
import proofs.«108152_j21388937134483_2_alg».proof.Proof.Blocks
import proofs.«108152_j21388937134483_2_alg».proof.Proof.Accum
import proofs.«108152_j21388937134483_2_alg».proof.Proof.LibFlatten
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Spec Cert.KernelIdeal.Accum

variable (m : (ℓ : Loc nD τ sig) → Buf (Elt Ideal) ℓ) (ρ : Dev nD → PrngReg)

/-- The region's result array: the layer on rows, over the arrays as the region finds them. -/
def region (c : Dev nD) : Buf (Elt Ideal) ((c : Thread nD τ).loc main_v3) :=
  fun j => out2 (aX m c) (aW m c) (aA m c) (aB m c) (j 0).val (j 1).val

/-- After a last block the output block holds the layer, at any index of the block. -/
theorem out_last (c : Dev nD) (t : Fin cfg0.N) (h3 : t.val % 4 = 3) (y : S2048x2048.Idx) :
    (outsAt0 m c t.val t.isLt).1 y
      = out2 (aX m c) (aW m c) (aA m c) (aB m c) (2048 * (t.val / 8) + (y 0).val) (2048 * (t.val / 4 % 2) + (y 1).val) := by
  obtain ⟨r, cc, rfl⟩ : ∃ (r cc : Fin 2048), y = ix2 r cc := ⟨y 0, y 1, eq_ix2 y⟩
  exact (inv m c t.val t.isLt).2.2 h3 r cc

/-- What a point writes back is its block of the layer: a block's row is block index times 2048 plus the row inside. -/
theorem flushed_eq (c : Dev nD) (t : Fin cfg0.N) (hf : (cfg0.win 4).flush t = true) :
    (dats m 0 c).flushed 4 t = ((cfg0.win 4).blk t).view.read (Elt Ideal) (region m c) := by
  have h3 : t.val % 4 = 3 := (flush0_4 t).mp hf
  show (cfg0.win 4).cut (grid0.coords t) ((dats m 0 c).after 4 t) = _
  rw [after0_4]
  funext y
  refine (out_last m c t h3 y).trans ?_
  show _ = out2 (aX m c) (aW m c) (aA m c) (aB m c) (win0_4.index t 0 * 2048 + 1 * (y 0).val) (win0_4.index t 1 * 2048 + 1 * (y 1).val)
  rw [(Blocks.idx4 t).1, (Blocks.idx4 t).2]
  have ea : t.val / 8 * 2048 + 1 * (y 0).val = 2048 * (t.val / 8) + (y 0).val := by omega
  have eb : t.val / 4 % 2 * 2048 + 1 * (y 1).val = 2048 * (t.val / 4 % 2) + (y 1).val := by omega
  rw [ea, eb]

/-- An index is in a point's output block iff each coordinate is in the block's range. -/
theorem mem_blk (t : Fin cfg0.N) (i : S8192x4096.Idx) :
    i ∈ ((cfg0.win 4).blk t).view.set ↔ ∀ a : Fin 2, win0_4.index t a * S2048x2048.size a ≤ (i a).val ∧ (i a).val < win0_4.index t a * S2048x2048.size a + S2048x2048.size a := by
  show i ∈ ((View.whole main_v3).slice (win0_4.rect t)).set ↔ _
  rw [View.set_slice_whole, Rect.mem_set_unit]
  exact Iff.rfl

/-- Every index is in the block some point writes back: the last point of its row and column blocks. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ : ∃ t : Fin cfg0.N, t.val = 8 * ((i 0).val / 2048) + 4 * ((i 1).val / 2048) + 3 :=
    ⟨⟨8 * ((i 0).val / 2048) + 4 * ((i 1).val / 2048) + 3, by rw [show cfg0.N = 32 from N_0]; omega⟩, rfl⟩
  refine ⟨t, (flush0_4 t).mpr (by omega), ?_⟩
  rw [mem_blk]
  intro a
  match a with
  | ⟨0, _⟩ =>
    show win0_4.index t 0 * 2048 ≤ (i 0).val ∧ (i 0).val < win0_4.index t 0 * 2048 + 2048
    rw [(Blocks.idx4 t).1]; omega
  | ⟨1, _⟩ =>
    show win0_4.index t 1 * 2048 ≤ (i 1).val ∧ (i 1).val < win0_4.index t 1 * 2048 + 2048
    rw [(Blocks.idx4 t).2]; omega

/-- So the region's result array ends at the layer on rows. -/
theorem final (c : Dev nD) : (dats m 0 c).arrAt 4 cfg0.N = region m c :=
  (dats m 0 c).arrAt_eq_of_cover 4 (region m c) (flushed_eq m c) (cover)

/-! ## The host operations around the region -/

/-- The flattened input the region finds: row 2048 b + s is row (b, s) of the input. -/
theorem aX_apply (c : Dev nD) (b : Fin 4) (s : Fin 2048) (k : Fin 4096) (R : Fin 8192) (hR : R.val = 2048 * b.val + s.val) :
    aX m c (ix2 R k) = (m ((c : Thread nD τ).loc main_arg0) : Arr3 4 2048 4096) (ix3 b s k) := by
  have e : (V m c main_v1 : S8192x4096.Idx → EReal)
      = truncf (F := Ideal) .bf16 (shapeCast S8192x4096 (m ((c : Thread nD τ).loc main_arg0)) shapeCasts_S4x2048x4096_S8192x4096) bitsLt_bf16_f32 := by
    show StableHlo.after hostOps0 (fun b => m (c, b)) (Proc.devRef .tc main_v1) = _
    after_results
    all_goals rfl
  show (V m c main_v1 : S8192x4096.Idx → EReal) (ix2 R k) = _
  rw [e, truncf_apply]
  exact LibFlatten.merge_apply _ shapeCasts_S4x2048x4096_S8192x4096 b s k R hR

/-- The weights the region finds are the weights. -/
theorem aW_eq (c : Dev nD) : aW m c = (m ((c : Thread nD τ).loc main_arg1) : Arr2 4096 4096) := by
  have e : (V m c main_v2 : S4096x4096.Idx → EReal)
      = truncf (F := Ideal) .bf16 (m ((c : Thread nD τ).loc main_arg1)) bitsLt_bf16_f32 := by
    show StableHlo.after hostOps0 (fun b => m (c, b)) (Proc.devRef .tc main_v2) = _
    after_results
    all_goals rfl
  show (V m c main_v2 : S4096x4096.Idx → EReal) = _
  rw [e]
  rfl

/-- The two low-rank factors are passed to the region as they are. -/
theorem aA_eq (c : Dev nD) : aA m c = (m ((c : Thread nD τ).loc main_arg2) : Arr2 16 4096) := V_main_arg2 m c
theorem aB_eq (c : Dev nD) : aB m c = (m ((c : Thread nD τ).loc main_arg3) : Arr2 4096 16) := V_main_arg3 m c

/-- The program's result: the region's result with its leading axis split back. -/
theorem tail_eq (c : Dev nD) :
    Pipeline.afterTail₀ cfgs (dats m) 0 (V0 m) [hostOps1] c main_v4
      = shapeCast S4x2048x4096 (region m c) shapeCasts_S8192x4096_S4x2048x4096 := by
  have hw : Pipeline.withArrays (cfgs 0).spec c (V0 m c) (fun w => (dats m 0 c).arrAt w (cfgs 0).N) (Proc.devRef .tc main_v3)
      = region m c := (Pipeline.withArrays_arr spec0 launch0.win.arr_inj c _ _ 4).trans (final m c)
  unfold Pipeline.afterTail₀
  show StableHlo.after hostOps1 _ (Proc.devRef .tc main_v4) = _
  after_results
  rw [hw]
  rfl

/-- The program's result is the specification of the four argument arrays. -/
theorem result_eq (c : Dev nD) :
    (shapeCast S4x2048x4096 (region m c) shapeCasts_S8192x4096_S4x2048x4096 : Arr3 4 2048 4096)
      = G (m ((c : Thread nD τ).loc main_arg0)) (m ((c : Thread nD τ).loc main_arg1)) (m ((c : Thread nD τ).loc main_arg2))
          (m ((c : Thread nD τ).loc main_arg3)) := by
  funext i
  obtain ⟨b, s, o, rfl⟩ : ∃ (b : Fin 4) (s : Fin 2048) (o : Fin 4096), i = ix3 b s o := ⟨i 0, i 1, i 2, eq_ix3 i⟩
  have hR : 2048 * b.val + s.val < 8192 := by have := b.isLt; have := s.isLt; omega
  rw [LibFlatten.split_apply (region m c) shapeCasts_S8192x4096_S4x2048x4096 b s o ⟨2048 * b.val + s.val, hR⟩ rfl]
  show out2 (aX m c) (aW m c) (aA m c) (aB m c) (2048 * b.val + s.val) o.val = out3 _ _ _ _ b s o
  rw [aW_eq, aA_eq, aB_eq]
  exact out2_eq_out3 _ (aX m c) _ _ _ b s o ⟨2048 * b.val + s.val, hR⟩ rfl
    (fun k => aX_apply m c b s k ⟨2048 * b.val + s.val, hR⟩ rfl)

/-- The run, read: the result at the specification, the arguments unchanged. -/
theorem run : θ_run defs (onTc (τ := τ) (main (F := Ideal))) ⟨m, fun _ => 0, ρ⟩ fun r => ∀ c : Dev nD,
      r.2.mem ((c.tc : Thread nD τ).loc main_v4)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v4 (Pipeline.mem_restRefs_of main_v4 (by decide) (by decide))).trans (tail_eq m c)).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Final

end
-- ==== Proof.RefSide.lean ====
/-
  The reference is the specification. Its three contractions read at an index are sums over the contracted
  coordinate: the base product pairs x[b, s, k] with W[o, k]; the projection pairs x[b, s, k] with A[ρ, k]; the
  correction pairs the projection at (b, s, ρ) with B[o, ρ]; the product with the broadcast literal 2 and the final
  sum are entrywise. That is the layer 'Spec.out3' at (b, s, o), term for term.
-/
import proofs.«108152_j21388937134483_2_alg».proof.Proof.Gen.ReferenceIdeal.Read
import proofs.«108152_j21388937134483_2_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.Spec

/-- The coordinates of a result index, as coordinates of literal extents. -/
abbrev cb (i : S4x2048x4096.Idx) : Fin 4 := ⟨(i 0).val, (i 0).isLt⟩
abbrev cs (i : S4x2048x4096.Idx) : Fin 2048 := ⟨(i 1).val, (i 1).isLt⟩
abbrev co (i : S4x2048x4096.Idx) : Fin 4096 := ⟨(i 2).val, (i 2).isLt⟩

/-- Where each contraction reads its operands. -/
theorem l0 (i : S4x2048x4096.Idx) (k : Fin 4096) : lidx_main_v0 i k = ix3 (cb i) (cs i) k :=
  funext fun a => Fin.ext (by match a with | ⟨0, _⟩ => rfl | ⟨1, _⟩ => rfl | ⟨2, _⟩ => rfl)
theorem r0 (i : S4x2048x4096.Idx) (k : Fin 4096) : ridx_main_v0 i k = ix2 (co i) k :=
  funext fun a => Fin.ext (by match a with | ⟨0, _⟩ => rfl | ⟨1, _⟩ => rfl)
theorem l1 (i : S4x2048x4096.Idx) (ρ : Fin 16) (k : Fin 4096) : lidx_main_v1 (lidx_main_v2 i ρ) k = ix3 (cb i) (cs i) k :=
  funext fun a => Fin.ext (by match a with | ⟨0, _⟩ => rfl | ⟨1, _⟩ => rfl | ⟨2, _⟩ => rfl)
theorem r1 (i : S4x2048x4096.Idx) (ρ : Fin 16) (k : Fin 4096) : ridx_main_v1 (lidx_main_v2 i ρ) k = ix2 ρ k :=
  funext fun a => Fin.ext (by match a with | ⟨0, _⟩ => rfl | ⟨1, _⟩ => rfl)
theorem r2 (i : S4x2048x4096.Idx) (ρ : Fin 16) : ridx_main_v2 i ρ = ix2 (co i) ρ :=
  funext fun a => Fin.ext (by match a with | ⟨0, _⟩ => rfl | ⟨1, _⟩ => rfl)

/-- The reference's result, as a function of the four argument arrays, is the specification. -/
theorem ref_eq (x : Arr3 4 2048 4096) (W : Arr2 4096 4096) (A : Arr2 16 4096) (B : Arr2 4096 16) :
    val_main_v5 (F := Ideal) x W A B = G x W A B := by
  funext i
  rw [val_main_v5_apply, val_main_v4_apply, val_main_v0_apply, val_main_v2_apply, val_main_v3_apply, val_main_cst_apply]
  simp only [val_main_v1_apply, l0, r0, l1, r1, r2]
  rfl

end Cert.ReferenceIdeal.RefValue

end
-- ==== Proof.lean ====
/-
  A linear layer with a rank-16 correction, out = x·Wᵀ + ((x·Aᵀ)·Bᵀ)·2, computed by a tiled kernel and by a plain
  reference, are the same function on the extended reals.

  The kernel walks a 4 × 2 × 4 grid: 2048 rows of the flattened input by 2048 output columns, the contracted axis
  in four blocks of 1024. Along the four blocks the output block and a carried 2048 × 16 accumulator collect
  x·Wᵀ and x·Aᵀ; the last block adds (accumulator·Bᵀ)·2 to the output block, which is then written back. The
  reference contracts the whole axis at once. The two agree because a sum over 4096 columns is the sum of its four
  consecutive segments, each started from what the segments before left and the first from zero: only that addition
  is a commutative monoid is used, so the precondition (finite inputs) is never opened. The changes of float format
  in the kernel are the identity on the extended reals, and the scale 2 is the same literal on both sides.

  Modules: Spec (the layer, and sums over an initial segment of the columns), Pieces (what each control case of
  the body leaves), Payload (the body's arithmetic at an index), Blocks (which entries of the arrays a point's
  blocks are), Accum (the running sums, by recursion on the point), Final (the written-back blocks cover the
  result; the host's reshapes; the kernel's run with its result named), RefSide (the reference is the layer),
  LibFlatten (merging and splitting the two leading axes, at an index).

  The idealized kernel is the kernel's own text read on the extended reals (no rewrite was applied), so the
  preservation conjunct is trivial; the three frames are the generated frame runs.
-/
import proofs.«108152_j21388937134483_2_alg».proof.Defs
import proofs.«108152_j21388937134483_2_alg».proof.Proof.Gen.Kernel
import proofs.«108152_j21388937134483_2_alg».proof.Proof.Gen.Kernel.Skeleton
import proofs.«108152_j21388937134483_2_alg».proof.Proof.Gen.Kernel.Launch
import proofs.«108152_j21388937134483_2_alg».proof.Proof.Gen.Kernel.Points
import proofs.«108152_j21388937134483_2_alg».proof.Proof.Gen.Kernel.Frame
import proofs.«108152_j21388937134483_2_alg».proof.Proof.Gen.KernelIdeal
import proofs.«108152_j21388937134483_2_alg».proof.Proof.Gen.KernelIdeal.Skeleton
import proofs.«108152_j21388937134483_2_alg».proof.Proof.Gen.KernelIdeal.Launch
import proofs.«108152_j21388937134483_2_alg».proof.Proof.Gen.KernelIdeal.Points
import proofs.«108152_j21388937134483_2_alg».proof.Proof.Gen.KernelIdeal.Frame
import proofs.«108152_j21388937134483_2_alg».proof.Proof.Gen.ReferenceIdeal
import proofs.«108152_j21388937134483_2_alg».proof.Proof.Gen.Pre_finite_inputs
import proofs.«108152_j21388937134483_2_alg».proof.Proof.Gen.ReferenceIdeal.Run
import proofs.«108152_j21388937134483_2_alg».proof.Proof.Gen.ReferenceIdeal.Read
import proofs.«108152_j21388937134483_2_alg».proof.Proof.Final
import proofs.«108152_j21388937134483_2_alg».proof.Proof.RefSide
import Idealize.ShloMosaic.Adequacy
import Idealize.ShloMosaic.Init

noncomputable section

namespace Cert.Proof

open Idealize.ShloMosaic Idealize.SL.Sem

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the layer of the argument arrays: the kernel by its run read
    through the grid, the reference by its three contractions read at an index. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
